-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7 : Shape := ⟨2, ![16384, 7]⟩
abbrev S32000x1024 : Shape := ⟨2, ![32000, 1024]⟩
abbrev S2x1024 : Shape := ⟨2, ![2, 1024]⟩
abbrev S3x1024 : Shape := ⟨2, ![3, 1024]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S3x1024 : S_.BroadcastsInDim S3x1024 (![] : Fin 0 → Fin S3x1024.rank)
  reducesTo_S3x1024_S_d0_1 : S3x1024.ReducesTo [0, 1] S_

variable [Facts]

def fn_part1 {F : FTy → Type} [FloatOps F] (main_arg5 : FVec F S3x1024 .f32) (main_v13 : IVec S_ 1) (main_v16 : IVec S3x1024 1) : IVec S_ 1 :=
  let main_c_5 : IVec S_ 1 := constantI S_ 1 1#1
  let main_v17 : IVec S_ 1 := (fun x v => Host.reduce IntOp.andi x v reducesTo_S3x1024_S_d0_1 h_S_) main_v16 main_c_5
  let main_v18 : IVec S_ 1 := andi main_v13 main_v17
  let main_v19 : FVec F S3x1024 .f32 := Host.absf main_arg5
  let main_cst_6 : FVec F S_ .f32 := constant S_ .f32 0x7F800000#32
  let main_v20 : FVec F S3x1024 .f32 := broadcastInDim S3x1024 ![] bcast_S_S3x1024 main_cst_6
  let main_v21 : IVec S3x1024 1 := cmpf .olt main_v19 main_v20
  let main_c_7 : IVec S_ 1 := constantI S_ 1 1#1
  let main_v22 : IVec S_ 1 := (fun x v => Host.reduce IntOp.andi x v reducesTo_S3x1024_S_d0_1 h_S_) main_v21 main_c_7
  let main_v23 : IVec S_ 1 := andi main_v18 main_v22
  main_v23

def fn {F : FTy → Type} [FloatOps F] (main_arg0 : IVec S16384x7 32) (main_arg1 : FVec F S32000x1024 .f32) (main_arg2 : FVec F S2x1024 .f32) (main_arg3 : FVec F S2x1024 .f32) (main_arg4 : FVec F S3x1024 .f32) (main_arg5 : FVec F S3x1024 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S2x1024 .f32 := Host.absf main_arg2
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S3x1024 .f32 := Host.absf main_arg4
  let main_cst_4 : FVec F S_ .f32 := constant S_ .f32 0x7F800000#32
  let main_v15 : FVec F S3x1024 .f32 := broadcastInDim S3x1024 ![] bcast_S_S3x1024 main_cst_4
  let main_v16 : IVec S3x1024 1 := cmpf .olt main_v14 main_v15
  fn_part1 (F := F) main_arg5 main_v13 main_v16
-- ==== Kernel.lean ====
abbrev S16384x7 : Shape := ⟨2, ![16384, 7]⟩
abbrev S32000x1024 : Shape := ⟨2, ![32000, 1024]⟩
abbrev S2x1024 : Shape := ⟨2, ![2, 1024]⟩
abbrev S3x1024 : Shape := ⟨2, ![3, 1024]⟩
abbrev S_ : Shape := ⟨0, ![]⟩
abbrev S16384x7x1 : Shape := ⟨3, ![16384, 7, 1]⟩
abbrev S16384x7x1024 : Shape := ⟨3, ![16384, 7, 1024]⟩
abbrev S16384x1024 : Shape := ⟨2, ![16384, 1024]⟩
abbrev S128x7x1024 : Shape := ⟨3, ![128, 7, 1024]⟩
abbrev S128x1024 : Shape := ⟨2, ![128, 1024]⟩
abbrev S128x6x1024 : Shape := ⟨3, ![128, 6, 1024]⟩
abbrev S1x1024 : Shape := ⟨2, ![1, 1024]⟩
abbrev S1024 : Shape := ⟨1, ![1024]⟩
abbrev S1x1x1024 : Shape := ⟨3, ![1, 1, 1024]⟩
abbrev S128x5x1024 : Shape := ⟨3, ![128, 5, 1024]⟩
abbrev S128x3x1024 : Shape := ⟨3, ![128, 3, 1024]⟩
abbrev S128x1x1024 : Shape := ⟨3, ![128, 1, 1024]⟩

abbrev nBuf : Space → Nat
  | .hbm => 16
  | .vmem => 8
  | .smem => 0
  | _ => 0

abbrev bufTy : (tb : Table) → Fin (tcTables nBuf tb) → BufTy
  | .hbm, ⟨0, _⟩ => ⟨S16384x7, .i32⟩
  | .hbm, ⟨1, _⟩ => ⟨S32000x1024, .f32⟩
  | .hbm, ⟨2, _⟩ => ⟨S2x1024, .f32⟩
  | .hbm, ⟨3, _⟩ => ⟨S2x1024, .f32⟩
  | .hbm, ⟨4, _⟩ => ⟨S3x1024, .f32⟩
  | .hbm, ⟨5, _⟩ => ⟨S3x1024, .f32⟩
  | .hbm, ⟨6, _⟩ => ⟨S_, .i32⟩
  | .hbm, ⟨7, _⟩ => ⟨S16384x7, .i32⟩
  | .hbm, ⟨8, _⟩ => ⟨S16384x7, .i1⟩
  | .hbm, ⟨9, _⟩ => ⟨S_, .i32⟩
  | .hbm, ⟨10, _⟩ => ⟨S16384x7, .i32⟩
  | .hbm, ⟨11, _⟩ => ⟨S16384x7, .i32⟩
  | .hbm, ⟨12, _⟩ => ⟨S16384x7, .i32⟩
  | .hbm, ⟨13, _⟩ => ⟨S16384x7x1, .i32⟩
  | .hbm, ⟨14, _⟩ => ⟨S16384x7x1024, .f32⟩
  | .hbm, ⟨15, _⟩ => ⟨S16384x1024, .f32⟩
  | .local _ .vmem, ⟨0, _⟩ => ⟨S128x7x1024, .f32⟩
  | .local _ .vmem, ⟨1, _⟩ => ⟨S128x7x1024, .f32⟩
  | .local _ .vmem, ⟨2, _⟩ => ⟨S2x1024, .f32⟩
  | .local _ .vmem, ⟨3, _⟩ => ⟨S2x1024, .f32⟩
  | .local _ .vmem, ⟨4, _⟩ => ⟨S3x1024, .f32⟩
  | .local _ .vmem, ⟨5, _⟩ => ⟨S3x1024, .f32⟩
  | .local _ .vmem, ⟨6, _⟩ => ⟨S128x1024, .f32⟩
  | .local _ .vmem, ⟨7, _⟩ => ⟨S128x1024, .f32⟩
  | _, _ => ⟨S16384x7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S16384x7 : S_.BroadcastsInDim S16384x7 (![] : Fin 0 → Fin S16384x7.rank)
  bcast_S16384x7_S16384x7x1_0_1 : S16384x7.BroadcastsInDim S16384x7x1 (![0, 1] : Fin 2 → Fin S16384x7x1.rank)
  inb_S128x7x1024_S128x7x1024_0_0_0 : ∀ a, (![0, 0, 0] : Fin 3 → Nat) a + S128x7x1024.size a ≤ S128x7x1024.size a
  h_S128x7x1024 : 0 < S128x7x1024.numel
  shapeCasts_S128x7x1024_S128x7x1024 : S128x7x1024.ShapeCasts S128x7x1024
  inb_S2x1024_S2x1024_0_0 : ∀ a, (![0, 0] : Fin 2 → Nat) a + S2x1024.size a ≤ S2x1024.size a
  h_S2x1024 : 0 < S2x1024.numel
  slices_S128x7x1024_o0_0_0_S128x6x1024 : S128x7x1024.Slices ![0, 0, 0] S128x6x1024
  slices_S2x1024_o0_0_S1x1024 : S2x1024.Slices ![0, 0] S1x1024
  shapeCasts_S1x1024_S1024 : S1x1024.ShapeCasts S1024
  shapeCasts_S1024_S1x1x1024 : S1024.ShapeCasts S1x1x1024
  broadcasts_S1x1x1024_S128x6x1024 : S1x1x1024.Broadcasts S128x6x1024
  slices_S128x7x1024_o0_1_0_S128x6x1024 : S128x7x1024.Slices ![0, 1, 0] S128x6x1024
  slices_S2x1024_o1_0_S1x1024 : S2x1024.Slices ![1, 0] S1x1024
  slices_S128x6x1024_o0_0_0_S128x5x1024 : S128x6x1024.Slices ![0, 0, 0] S128x5x1024
  broadcasts_S1x1x1024_S128x5x1024 : S1x1x1024.Broadcasts S128x5x1024
  slices_S128x6x1024_o0_1_0_S128x5x1024 : S128x6x1024.Slices ![0, 1, 0] S128x5x1024
  inb_S3x1024_S3x1024_0_0 : ∀ a, (![0, 0] : Fin 2 → Nat) a + S3x1024.size a ≤ S3x1024.size a
  h_S3x1024 : 0 < S3x1024.numel
  slices_S128x5x1024_o0_0_0_S128x3x1024 : S128x5x1024.Slices ![0, 0, 0] S128x3x1024
  slices_S3x1024_o0_0_S1x1024 : S3x1024.Slices ![0, 0] S1x1024
  broadcasts_S1x1x1024_S128x3x1024 : S1x1x1024.Broadcasts S128x3x1024
  slices_S128x5x1024_o0_1_0_S128x3x1024 : S128x5x1024.Slices ![0, 1, 0] S128x3x1024
  slices_S3x1024_o1_0_S1x1024 : S3x1024.Slices ![1, 0] S1x1024
  slices_S128x5x1024_o0_2_0_S128x3x1024 : S128x5x1024.Slices ![0, 2, 0] S128x3x1024
  slices_S3x1024_o2_0_S1x1024 : S3x1024.Slices ![2, 0] S1x1024
  slices_S128x3x1024_o0_0_0_S128x1x1024 : S128x3x1024.Slices ![0, 0, 0] S128x1x1024
  broadcasts_S1x1x1024_S128x1x1024 : S1x1x1024.Broadcasts S128x1x1024
  slices_S128x3x1024_o0_1_0_S128x1x1024 : S128x3x1024.Slices ![0, 1, 0] S128x1x1024
  slices_S128x3x1024_o0_2_0_S128x1x1024 : S128x3x1024.Slices ![0, 2, 0] S128x1x1024
  shapeCasts_S128x1x1024_S128x1024 : S128x1x1024.ShapeCasts S128x1024
  inb_S128x1024_S128x1024_0_0 : ∀ a, (![0, 0] : Fin 2 → Nat) a + S128x1024.size a ≤ S128x1024.size a
  h_S128x1024 : 0 < S128x1024.numel
  gather_S32000x1024_S16384x7x1_S16384x7x1024_2_0_n_n_0_2_11024_wf : GatherDims.WF S32000x1024 S16384x7x1 S16384x7x1024 [2] [0] [] [0] [] 2 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x7x1024.size a ≤ S16384x7x1024.size a
  hwx0_0 : ∀ i : grid0.Coords, EltTy.bits .f32 = 32 ∨ (Rect.block (s := S16384x7x1024) S128x7x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x1024.size a
  hwx0_1 : ∀ i : grid0.Coords, EltTy.bits .f32 = 32 ∨ (Rect.block (s := S2x1024) S2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024.size a ≤ S3x1024.size a
  hwx0_3 : ∀ i : grid0.Coords, EltTy.bits .f32 = 32 ∨ (Rect.block (s := S3x1024) S3x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1024.size a ≤ S3x1024.size a
  hwx0_4 : ∀ i : grid0.Coords, EltTy.bits .f32 = 32 ∨ (Rect.block (s := S3x1024) S3x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S16384x1024.size a
  hwx0_5 : ∀ i : grid0.Coords, EltTy.bits .f32 = 32 ∨ (Rect.block (s := S16384x1024) S128x1024.size (cc0_transform_5 i) (hinb0_5 i)).WholeWords (EltTy.packing .f32)

variable [Facts₀]

def gather_S32000x1024_S16384x7x1_S16384x7x1024_2_0_n_n_0_2_11024 : GatherDims S32000x1024 S16384x7x1 S16384x7x1024 where
  offsetDims := [2]
  collapsedSliceDims := [0]
  operandBatchingDims := []
  startIndicesBatchingDims := []
  startIndexMap := [0]
  indexVectorDim := 2
  sliceSizes := ![1, 1024]
  wf := gather_S32000x1024_S16384x7x1_S16384x7x1024_2_0_n_n_0_2_11024_wf

abbrev win0_0 : Pipeline.Window sig grid0 :=
  Pipeline.Window.ofSpec (Memref.whole main_v6) S128x7x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x7 : Shape := ⟨2, ![16384, 7]⟩
abbrev S32000x1024 : Shape := ⟨2, ![32000, 1024]⟩
abbrev S2x1024 : Shape := ⟨2, ![2, 1024]⟩
abbrev S3x1024 : Shape := ⟨2, ![3, 1024]⟩
abbrev S_ : Shape := ⟨0, ![]⟩
abbrev S16384x7x1 : Shape := ⟨3, ![16384, 7, 1]⟩
abbrev S16384x7x1024 : Shape := ⟨3, ![16384, 7, 1024]⟩
abbrev S16384x6x1024 : Shape := ⟨3, ![16384, 6, 1024]⟩
abbrev S1x1024 : Shape := ⟨2, ![1, 1024]⟩
abbrev S1024 : Shape := ⟨1, ![1024]⟩
abbrev S1x1x1024 : Shape := ⟨3, ![1, 1, 1024]⟩
abbrev S16384x5x1024 : Shape := ⟨3, ![16384, 5, 1024]⟩
abbrev S16384x3x1024 : Shape := ⟨3, ![16384, 3, 1024]⟩
abbrev S16384x1x1024 : Shape := ⟨3, ![16384, 1, 1024]⟩
abbrev S16384x1024 : Shape := ⟨2, ![16384, 1024]⟩

abbrev nBuf : Space → Nat
  | .hbm => 114
  | .vmem => 0
  | .smem => 0
  | _ => 0

abbrev bufTy : (tb : Table) → Fin (tcTables nBuf tb) → BufTy
  | .hbm, ⟨0, _⟩ => ⟨S16384x7, .i32⟩
  | .hbm, ⟨1, _⟩ => ⟨S32000x1024, .f32⟩
  | .hbm, ⟨2, _⟩ => ⟨S2x1024, .f32⟩
  | .hbm, ⟨3, _⟩ => ⟨S2x1024, .f32⟩
  | .hbm, ⟨4, _⟩ => ⟨S3x1024, .f32⟩
  | .hbm, ⟨5, _⟩ => ⟨S3x1024, .f32⟩
  | .hbm, ⟨6, _⟩ => ⟨S_, .i32⟩
  | .hbm, ⟨7, _⟩ => ⟨S16384x7, .i32⟩
  | .hbm, ⟨8, _⟩ => ⟨S16384x7, .i1⟩
  | .hbm, ⟨9, _⟩ => ⟨S_, .i32⟩
  | .hbm, ⟨10, _⟩ => ⟨S16384x7, .i32⟩
  | .hbm, ⟨11, _⟩ => ⟨S16384x7, .i32⟩
  | .hbm, ⟨12, _⟩ => ⟨S16384x7, .i32⟩
  | .hbm, ⟨13, _⟩ => ⟨S16384x7x1, .i32⟩
  | .hbm, ⟨14, _⟩ => ⟨S16384x7x1024, .f32⟩
  | .hbm, ⟨15, _⟩ => ⟨S16384x6x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S16384x6x1024, .f32⟩
  | .hbm, ⟨20, _⟩ => ⟨S16384x6x1024, .f32⟩
  | .hbm, ⟨21, _⟩ => ⟨S16384x6x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S16384x6x1024, .f32⟩
  | .hbm, ⟨26, _⟩ => ⟨S16384x6x1024, .f32⟩
  | .hbm, ⟨27, _⟩ => ⟨S16384x6x1024, .f32⟩
  | .hbm, ⟨28, _⟩ => ⟨S16384x6x1024, .f32⟩
  | .hbm, ⟨29, _⟩ => ⟨S16384x6x1024, .f32⟩
  | .hbm, ⟨30, _⟩ => ⟨S_, .f32⟩
  | .hbm, ⟨31, _⟩ => ⟨S16384x6x1024, .f32⟩
  | .hbm, ⟨32, _⟩ => ⟨S16384x6x1024, .f32⟩
  | .hbm, ⟨33, _⟩ => ⟨S_, .f32⟩
  | .hbm, ⟨34, _⟩ => ⟨S16384x6x1024, .f32⟩
  | .hbm, ⟨35, _⟩ => ⟨S16384x6x1024, .f32⟩
  | .hbm, ⟨36, _⟩ => ⟨S16384x5x1024, .f32⟩
  | .hbm, ⟨37, _⟩ => ⟨S1x1024, .f32⟩
  | .hbm, ⟨38, _⟩ => ⟨S1024, .f32⟩
  | .hbm, ⟨39, _⟩ => ⟨S1x1x1024, .f32⟩
  | .hbm, ⟨40, _⟩ => ⟨S16384x5x1024, .f32⟩
  | .hbm, ⟨41, _⟩ => ⟨S16384x5x1024, .f32⟩
  | .hbm, ⟨42, _⟩ => ⟨S16384x5x1024, .f32⟩
  | .hbm, ⟨43, _⟩ => ⟨S1x1024, .f32⟩
  | .hbm, ⟨44, _⟩ => ⟨S1024, .f32⟩
  | .hbm, ⟨45, _⟩ => ⟨S1x1x1024, .f32⟩
  | .hbm, ⟨46, _⟩ => ⟨S16384x5x1024, .f32⟩
  | .hbm, ⟨47, _⟩ => ⟨S16384x5x1024, .f32⟩
  | .hbm, ⟨48, _⟩ => ⟨S16384x5x1024, .f32⟩
  | .hbm, ⟨49, _⟩ => ⟨S16384x5x1024, .f32⟩
  | .hbm, ⟨50, _⟩ => ⟨S16384x5x1024, .f32⟩
  | .hbm, ⟨51, _⟩ => ⟨S_, .f32⟩
  | .hbm, ⟨52, _⟩ => ⟨S16384x5x1024, .f32⟩
  | .hbm, ⟨53, _⟩ => ⟨S16384x5x1024, .f32⟩
  | .hbm, ⟨54, _⟩ => ⟨S_, .f32⟩
  | .hbm, ⟨55, _⟩ => ⟨S16384x5x1024, .f32⟩
  | .hbm, ⟨56, _⟩ => ⟨S16384x5x1024, .f32⟩
  | .hbm, ⟨57, _⟩ => ⟨S16384x3x1024, .f32⟩
  | .hbm, ⟨58, _⟩ => ⟨S1x1024, .f32⟩
  | .hbm, ⟨59, _⟩ => ⟨S1024, .f32⟩
  | .hbm, ⟨60, _⟩ => ⟨S1x1x1024, .f32⟩
  | .hbm, ⟨61, _⟩ => ⟨S16384x3x1024, .f32⟩
  | .hbm, ⟨62, _⟩ => ⟨S16384x3x1024, .f32⟩
  | .hbm, ⟨63, _⟩ => ⟨S16384x3x1024, .f32⟩
  | .hbm, ⟨64, _⟩ => ⟨S1x1024, .f32⟩
  | .hbm, ⟨65, _⟩ => ⟨S1024, .f32⟩
  | .hbm, ⟨66, _⟩ => ⟨S1x1x1024, .f32⟩
  | .hbm, ⟨67, _⟩ => ⟨S16384x3x1024, .f32⟩
  | .hbm, ⟨68, _⟩ => ⟨S16384x3x1024, .f32⟩
  | .hbm, ⟨69, _⟩ => ⟨S16384x3x1024, .f32⟩
  | .hbm, ⟨70, _⟩ => ⟨S16384x3x1024, .f32⟩
  | .hbm, ⟨71, _⟩ => ⟨S1x1024, .f32⟩
  | .hbm, ⟨72, _⟩ => ⟨S1024, .f32⟩
  | .hbm, ⟨73, _⟩ => ⟨S1x1x1024, .f32⟩
  | .hbm, ⟨74, _⟩ => ⟨S16384x3x1024, .f32⟩
  | .hbm, ⟨75, _⟩ => ⟨S16384x3x1024, .f32⟩
  | .hbm, ⟨76, _⟩ => ⟨S16384x3x1024, .f32⟩
  | .hbm, ⟨77, _⟩ => ⟨S16384x3x1024, .f32⟩
  | .hbm, ⟨78, _⟩ => ⟨S16384x3x1024, .f32⟩
  | .hbm, ⟨79, _⟩ => ⟨S_, .f32⟩
  | .hbm, ⟨80, _⟩ => ⟨S16384x3x1024, .f32⟩
  | .hbm, ⟨81, _⟩ => ⟨S16384x3x1024, .f32⟩
  | .hbm, ⟨82, _⟩ => ⟨S_, .f32⟩
  | .hbm, ⟨83, _⟩ => ⟨S16384x3x1024, .f32⟩
  | .hbm, ⟨84, _⟩ => ⟨S16384x3x1024, .f32⟩
  | .hbm, ⟨85, _⟩ => ⟨S16384x1x1024, .f32⟩
  | .hbm, ⟨86, _⟩ => ⟨S1x1024, .f32⟩
  | .hbm, ⟨87, _⟩ => ⟨S1024, .f32⟩
  | .hbm, ⟨88, _⟩ => ⟨S1x1x1024, .f32⟩
  | .hbm, ⟨89, _⟩ => ⟨S16384x1x1024, .f32⟩
  | .hbm, ⟨90, _⟩ => ⟨S16384x1x1024, .f32⟩
  | .hbm, ⟨91, _⟩ => ⟨S16384x1x1024, .f32⟩
  | .hbm, ⟨92, _⟩ => ⟨S1x1024, .f32⟩
  | .hbm, ⟨93, _⟩ => ⟨S1024, .f32⟩
  | .hbm, ⟨94, _⟩ => ⟨S1x1x1024, .f32⟩
  | .hbm, ⟨95, _⟩ => ⟨S16384x1x1024, .f32⟩
  | .hbm, ⟨96, _⟩ => ⟨S16384x1x1024, .f32⟩
  | .hbm, ⟨97, _⟩ => ⟨S16384x1x1024, .f32⟩
  | .hbm, ⟨98, _⟩ => ⟨S16384x1x1024, .f32⟩
  | .hbm, ⟨99, _⟩ => ⟨S1x1024, .f32⟩
  | .hbm, ⟨100, _⟩ => ⟨S1024, .f32⟩
  | .hbm, ⟨101, _⟩ => ⟨S1x1x1024, .f32⟩
  | .hbm, ⟨102, _⟩ => ⟨S16384x1x1024, .f32⟩
  | .hbm, ⟨103, _⟩ => ⟨S16384x1x1024, .f32⟩
  | .hbm, ⟨104, _⟩ => ⟨S16384x1x1024, .f32⟩
  | .hbm, ⟨105, _⟩ => ⟨S16384x1x1024, .f32⟩
  | .hbm, ⟨106, _⟩ => ⟨S16384x1x1024, .f32⟩
  | .hbm, ⟨107, _⟩ => ⟨S_, .f32⟩
  | .hbm, ⟨108, _⟩ => ⟨S16384x1x1024, .f32⟩
  | .hbm, ⟨109, _⟩ => ⟨S16384x1x1024, .f32⟩
  | .hbm, ⟨110, _⟩ => ⟨S_, .f32⟩
  | .hbm, ⟨111, _⟩ => ⟨S16384x1x1024, .f32⟩
  | .hbm, ⟨112, _⟩ => ⟨S16384x1x1024, .f32⟩
  | .hbm, ⟨113, _⟩ => ⟨S16384x1024, .f32⟩
  | _, _ => ⟨S16384x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_4 : Ref sig .tc := ⟨.hbm, 79, rfl⟩
abbrev main_v67 : Ref sig .tc := ⟨.hbm, 80, rfl⟩
abbrev main_v68 : Ref sig .tc := ⟨.hbm, 81, rfl⟩
abbrev main_cst_5 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_6 : Ref sig .tc := ⟨.hbm, 107, rfl⟩
abbrev main_v93 : Ref sig .tc := ⟨.hbm, 108, rfl⟩
abbrev main_v94 : Ref sig .tc := ⟨.hbm, 109, rfl⟩
abbrev main_cst_7 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩

abbrev nD : Nat := 1
abbrev τ : Topo := Topo.v7x

variable {F : FTy → Type} [FloatOps F]

class Facts₀ : Prop where
  bcast_S_S16384x7 : S_.BroadcastsInDim S16384x7 (![] : Fin 0 → Fin S16384x7.rank)
  bcast_S16384x7_S16384x7x1_0_1 : S16384x7.BroadcastsInDim S16384x7x1 (![0, 1] : Fin 2 → Fin S16384x7x1.rank)
  slices_S16384x7x1024_S16384x6x1024_0_0_0 : S16384x7x1024.Slices ![0, 0, 0] S16384x6x1024
  slices_S2x1024_S1x1024_0_0 : S2x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S16384x6x1024_0_1_2 : S1x1x1024.BroadcastsInDim S16384x6x1024 (![0, 1, 2] : Fin 3 → Fin S16384x6x1024.rank)
  slices_S16384x7x1024_S16384x6x1024_0_1_0 : S16384x7x1024.Slices ![0, 1, 0] S16384x6x1024
  slices_S2x1024_S1x1024_1_0 : S2x1024.Slices ![1, 0] S1x1024
  bcast_S_S16384x6x1024 : S_.BroadcastsInDim S16384x6x1024 (![] : Fin 0 → Fin S16384x6x1024.rank)
  slices_S16384x6x1024_S16384x5x1024_0_0_0 : S16384x6x1024.Slices ![0, 0, 0] S16384x5x1024
  bcast_S1x1x1024_S16384x5x1024_0_1_2 : S1x1x1024.BroadcastsInDim S16384x5x1024 (![0, 1, 2] : Fin 3 → Fin S16384x5x1024.rank)
  slices_S16384x6x1024_S16384x5x1024_0_1_0 : S16384x6x1024.Slices ![0, 1, 0] S16384x5x1024
  bcast_S_S16384x5x1024 : S_.BroadcastsInDim S16384x5x1024 (![] : Fin 0 → Fin S16384x5x1024.rank)
  slices_S16384x5x1024_S16384x3x1024_0_0_0 : S16384x5x1024.Slices ![0, 0, 0] S16384x3x1024
  slices_S3x1024_S1x1024_0_0 : S3x1024.Slices ![0, 0] S1x1024
  bcast_S1x1x1024_S16384x3x1024_0_1_2 : S1x1x1024.BroadcastsInDim S16384x3x1024 (![0, 1, 2] : Fin 3 → Fin S16384x3x1024.rank)
  slices_S16384x5x1024_S16384x3x1024_0_1_0 : S16384x5x1024.Slices ![0, 1, 0] S16384x3x1024
  slices_S3x1024_S1x1024_1_0 : S3x1024.Slices ![1, 0] S1x1024
  slices_S16384x5x1024_S16384x3x1024_0_2_0 : S16384x5x1024.Slices ![0, 2, 0] S16384x3x1024
  slices_S3x1024_S1x1024_2_0 : S3x1024.Slices ![2, 0] S1x1024
  bcast_S_S16384x3x1024 : S_.BroadcastsInDim S16384x3x1024 (![] : Fin 0 → Fin S16384x3x1024.rank)
  slices_S16384x3x1024_S16384x1x1024_0_0_0 : S16384x3x1024.Slices ![0, 0, 0] S16384x1x1024
  bcast_S1x1x1024_S16384x1x1024_0_1_2 : S1x1x1024.BroadcastsInDim S16384x1x1024 (![0, 1, 2] : Fin 3 → Fin S16384x1x1024.rank)
  slices_S16384x3x1024_S16384x1x1024_0_1_0 : S16384x3x1024.Slices ![0, 1, 0] S16384x1x1024
  slices_S16384x3x1024_S16384x1x1024_0_2_0 : S16384x3x1024.Slices ![0, 2, 0] S16384x1x1024
  bcast_S_S16384x1x1024 : S_.BroadcastsInDim S16384x1x1024 (![] : Fin 0 → Fin S16384x1x1024.rank)
  shapeCasts_S16384x1x1024_S16384x1024 : S16384x1x1024.ShapeCasts S16384x1024
  gather_S32000x1024_S16384x7x1_S16384x7x1024_2_0_n_n_0_2_11024_wf : GatherDims.WF S32000x1024 S16384x7x1 S16384x7x1024 [2] [0] [] [0] [] 2 ![1, 1024]

variable [Facts₀]

def gather_S32000x1024_S16384x7x1_S16384x7x1024_2_0_n_n_0_2_11024 : GatherDims S32000x1024 S16384x7x1 S16384x7x1024 where
  offsetDims := [2]
  collapsedSliceDims := [0]
  operandBatchingDims := []
  startIndicesBatchingDims := []
  startIndexMap := [0]
  indexVectorDim := 2
  sliceSizes := ![1, 1024]
  wf := gather_S32000x1024_S16384x7x1_S16384x7x1024_2_0_n_n_0_2_11024_wf

class Facts : Prop extends Facts₀ where

variable [Facts]
-- ==== Proof.LibSlidingTaps.lean ====
/-
  A window sliding along the middle axis of a [B, L, C] array, one weight per tap and channel, followed by the
  logistic.  For taps k[0], k[1] (and k[2]) the value at (b, s, e) is

      σ( x[b, s, e]·k[0, e] + x[b, s+1, e]·k[1, e] )            (two taps, L+1 → L)
      σ( (x[b, s, e]·k[0, e] + x[b, s+1, e]·k[1, e]) + x[b, s+2, e]·k[2, e] )   (three taps, L+2 → L)

  with σ y = 1 / (1 + exp (−y)) on the extended reals.  The value at (b, ·, e) depends only on the operand's entries
  at (b, ·, e): `fibre x b e` names that sequence, and `win2` / `win3` are the window on a bare sequence.  Two
  spellings of the same array are read here at an index, with every extent symbolic:
  • the vector unit's: unit-stride slices of the operand along axis 1, the weight row cut out of the [n, C] matrix,
    flattened, given two leading unit axes and spread over [B, L, C]; multiply, add, the one-operation logistic;
  • the host's: the same slices, the weight row flattened and placed by two `broadcast_in_dim`s; multiply, add, then
    the logistic written out as 1 / (1 + exp (−y)) with the literal one splat from a scalar.
  Both are `win2` / `win3` of the operand's fibre: `vector_win2`, `vector_win3`, `host_win2`, `host_win3`.
  Also here: an [a, 1, b] array cast to [a, b] read at (i, j) (`shapeCast_a1b_ab_apply`), and the binary32 word of one.
-/
import Idealize.ShloMosaic.Lib.ValueLayout
import Idealize.ShloMosaic.Lib.ValueIdx
import Idealize.ShloMosaic.PureOps.Ideal

noncomputable section

namespace Cert.Lib.SlidingTaps

open Idealize.ShloMosaic Idealize.ShloMosaic.ValueIdx

/-! ## The window on a sequence -/

/-- The entries of a [B, L, C] array along its middle axis, at fixed outer coordinates. -/
def fibre {α : Type} {B L C : ℕ} (x : (⟨3, ![B, L, C]⟩ : Shape).Idx → α) (b : Fin B) (e : Fin C) : Fin L → α :=
  fun s => x (ix3 b s e)

/-- Two taps: position `s` of the result sees positions `s` and `s + 1` of the operand. -/
def win2 {L : ℕ} (h : Fin (L + 1) → EReal) (a b : EReal) : Fin L → EReal :=
  fun s => Ideal.logistic (h s.castSucc * a + h s.succ * b)

/-- Three taps: position `s` of the result sees positions `s`, `s + 1` and `s + 2` of the operand, the products
    added left to right. -/
def win3 {L : ℕ} (h : Fin (L + 2) → EReal) (a b c : EReal) : Fin L → EReal :=
  fun s => Ideal.logistic (h s.castSucc.castSucc * a + h s.succ.castSucc * b + h s.succ.succ * c)

/-! ## One weight row over the whole array, in two spellings -/

section Taps
variable {α : Type}

/-- Row `t` of an [n, C] matrix, flattened to [C]: at `e` it is the matrix at (t, e). -/
theorem weight_row_apply {C n : ℕ} (t : ℕ) (ht : t < n) (k : (⟨2, ![n, C]⟩ : Shape).Idx → α)
    (h1 : (⟨2, ![n, C]⟩ : Shape).Slices ![t, 0] ⟨2, ![1, C]⟩)
    (h2 : (⟨2, ![1, C]⟩ : Shape).ShapeCasts ⟨1, ![C]⟩) (e : Fin C) :
    shapeCast ⟨1, ![C]⟩ (extractStridedSlice ⟨2, ![1, C]⟩ ![t, 0] k h1) h2 (ix1 e) = k (ix2 ⟨t, ht⟩ e) :=
  (shapeCast_1a_a_apply _ h2 e).trans (slice2_axis0_apply t k h1 (0 : Fin 1) e ⟨t, ht⟩ (by simp))

/-- The vector unit's spelling: the flattened row given two leading unit axes and spread over [B, L, C] is, at
    (b, s, e), the matrix at (t, e). -/
theorem vector_tap_apply {B L C n : ℕ} (t : ℕ) (ht : t < n) (k : (⟨2, ![n, C]⟩ : Shape).Idx → α)
    (h1 : (⟨2, ![n, C]⟩ : Shape).Slices ![t, 0] ⟨2, ![1, C]⟩)
    (h2 : (⟨2, ![1, C]⟩ : Shape).ShapeCasts ⟨1, ![C]⟩)
    (h3 : (⟨1, ![C]⟩ : Shape).ShapeCasts ⟨3, ![1, 1, C]⟩)
    (h4 : (⟨3, ![1, 1, C]⟩ : Shape).Broadcasts ⟨3, ![B, L, C]⟩)
    (b : Fin B) (s : Fin L) (e : Fin C) :
    broadcastTo ⟨3, ![B, L, C]⟩
        (shapeCast ⟨3, ![1, 1, C]⟩ (shapeCast ⟨1, ![C]⟩ (extractStridedSlice ⟨2, ![1, C]⟩ ![t, 0] k h1) h2) h3) h4
        (ix3 b s e)
      = k (ix2 ⟨t, ht⟩ e) := by
  refine (broadcastTo_apply _ h4 (ix3 b s e) (ix3 (0 : Fin 1) (0 : Fin 1) e) fun ax => ?_).trans ?_
  · match ax with
    | ⟨0, _⟩ => rfl
    | ⟨1, _⟩ => rfl
    | ⟨2, _⟩ =>
      show e.val = if C = 1 then 0 else e.val
      split
      · have := e.isLt; omega
      · rfl
  refine (shapeCast_apply _ h3 (ix3 (0 : Fin 1) (0 : Fin 1) e) (ix1 e) ?_).trans (weight_row_apply t ht k h1 h2 e)
  rw [Shape.rowMajor_val_one, Shape.rowMajor_val_three]
  show e.val = (0 * 1 + 0) * C + e.val
  simp only [Nat.zero_mul, Nat.zero_add]

/-- The host's spelling: the flattened row placed on the last of three axes, then spread over [B, L, C], is, at
    (b, s, e), the matrix at (t, e). -/
theorem host_tap_apply {B L C n : ℕ} (t : ℕ) (ht : t < n) (k : (⟨2, ![n, C]⟩ : Shape).Idx → α)
    (h1 : (⟨2, ![n, C]⟩ : Shape).Slices ![t, 0] ⟨2, ![1, C]⟩)
    (h2 : (⟨2, ![1, C]⟩ : Shape).ShapeCasts ⟨1, ![C]⟩)
    (h3 : (⟨1, ![C]⟩ : Shape).BroadcastsInDim ⟨3, ![1, 1, C]⟩ ![2])
    (h4 : (⟨3, ![1, 1, C]⟩ : Shape).BroadcastsInDim ⟨3, ![B, L, C]⟩ ![0, 1, 2])
    (b : Fin B) (s : Fin L) (e : Fin C) :
    broadcastInDim ⟨3, ![B, L, C]⟩ ![0, 1, 2] h4
        (broadcastInDim ⟨3, ![1, 1, C]⟩ ![2] h3 (shapeCast ⟨1, ![C]⟩ (extractStridedSlice ⟨2, ![1, C]⟩ ![t, 0] k h1) h2))
        (ix3 b s e)
      = k (ix2 ⟨t, ht⟩ e) := by
  refine (broadcastInDim_apply _ h4 _ (ix3 b s e) (ix3 (0 : Fin 1) (0 : Fin 1) e) fun ax => ?_).trans ?_
  · match ax with
    | ⟨0, _⟩ => rfl
    | ⟨1, _⟩ => rfl
    | ⟨2, _⟩ =>
      show e.val = if C = 1 then 0 else e.val
      split
      · have := e.isLt; omega
      · rfl
  refine (broadcastInDim_apply _ h3 _ (ix3 (0 : Fin 1) (0 : Fin 1) e) (ix1 e) fun ax => ?_).trans
    (weight_row_apply t ht k h1 h2 e)
  match ax with
  | ⟨0, _⟩ =>
    show e.val = if C = 1 then 0 else e.val
    split
    · have := e.isLt; omega
    · rfl

end Taps

/-! ## The window over the array, in two spellings -/

section Windows
variable {φ : FTy} {B L C : ℕ}

/-- The vector unit's two-tap window is `win2` of the operand's fibre. -/
theorem vector_win2 (x : FVec Ideal ⟨3, ![B, L + 1, C]⟩ φ) (k : FVec Ideal ⟨2, ![2, C]⟩ φ)
    (hx0 : (⟨3, ![B, L + 1, C]⟩ : Shape).Slices ![0, 0, 0] ⟨3, ![B, L, C]⟩)
    (hx1 : (⟨3, ![B, L + 1, C]⟩ : Shape).Slices ![0, 1, 0] ⟨3, ![B, L, C]⟩)
    (hk0 : (⟨2, ![2, C]⟩ : Shape).Slices ![0, 0] ⟨2, ![1, C]⟩)
    (hk1 : (⟨2, ![2, C]⟩ : Shape).Slices ![1, 0] ⟨2, ![1, C]⟩)
    (h2 : (⟨2, ![1, C]⟩ : Shape).ShapeCasts ⟨1, ![C]⟩)
    (h3 : (⟨1, ![C]⟩ : Shape).ShapeCasts ⟨3, ![1, 1, C]⟩)
    (h4 : (⟨3, ![1, 1, C]⟩ : Shape).Broadcasts ⟨3, ![B, L, C]⟩)
    (b : Fin B) (e : Fin C) :
    fibre (logistic (addf
        (mulf (extractStridedSlice ⟨3, ![B, L, C]⟩ ![0, 0, 0] x hx0)
          (broadcastTo ⟨3, ![B, L, C]⟩ (shapeCast ⟨3, ![1, 1, C]⟩ (shapeCast ⟨1, ![C]⟩
            (extractStridedSlice ⟨2, ![1, C]⟩ ![0, 0] k hk0) h2) h3) h4))
        (mulf (extractStridedSlice ⟨3, ![B, L, C]⟩ ![0, 1, 0] x hx1)
          (broadcastTo ⟨3, ![B, L, C]⟩ (shapeCast ⟨3, ![1, 1, C]⟩ (shapeCast ⟨1, ![C]⟩
            (extractStridedSlice ⟨2, ![1, C]⟩ ![1, 0] k hk1) h2) h3) h4)))) b e
      = win2 (fibre x b e) (k (ix2 (0 : Fin 2) e)) (k (ix2 (1 : Fin 2) e)) := by
  funext s
  show Ideal.logistic
      (extractStridedSlice ⟨3, ![B, L, C]⟩ ![0, 0, 0] x hx0 (ix3 b s e) * _
        + extractStridedSlice ⟨3, ![B, L, C]⟩ ![0, 1, 0] x hx1 (ix3 b s e) * _) = _
  rw [slice3_axis1_apply 0 x hx0 b s e s.castSucc (by simp),
    slice3_axis1_apply 1 x hx1 b s e s.succ (by simp; omega),
    vector_tap_apply 0 (by omega) k hk0 h2 h3 h4 b s e, vector_tap_apply 1 (by omega) k hk1 h2 h3 h4 b s e]
  rfl

/-- The vector unit's three-tap window is `win3` of the operand's fibre. -/
theorem vector_win3 (x : FVec Ideal ⟨3, ![B, L + 2, C]⟩ φ) (k : FVec Ideal ⟨2, ![3, C]⟩ φ)
    (hx0 : (⟨3, ![B, L + 2, C]⟩ : Shape).Slices ![0, 0, 0] ⟨3, ![B, L, C]⟩)
    (hx1 : (⟨3, ![B, L + 2, C]⟩ : Shape).Slices ![0, 1, 0] ⟨3, ![B, L, C]⟩)
    (hx2 : (⟨3, ![B, L + 2, C]⟩ : Shape).Slices ![0, 2, 0] ⟨3, ![B, L, C]⟩)
    (hk0 : (⟨2, ![3, C]⟩ : Shape).Slices ![0, 0] ⟨2, ![1, C]⟩)
    (hk1 : (⟨2, ![3, C]⟩ : Shape).Slices ![1, 0] ⟨2, ![1, C]⟩)
    (hk2 : (⟨2, ![3, C]⟩ : Shape).Slices ![2, 0] ⟨2, ![1, C]⟩)
    (h2 : (⟨2, ![1, C]⟩ : Shape).ShapeCasts ⟨1, ![C]⟩)
    (h3 : (⟨1, ![C]⟩ : Shape).ShapeCasts ⟨3, ![1, 1, C]⟩)
    (h4 : (⟨3, ![1, 1, C]⟩ : Shape).Broadcasts ⟨3, ![B, L, C]⟩)
    (b : Fin B) (e : Fin C) :
    fibre (logistic (addf (addf
        (mulf (extractStridedSlice ⟨3, ![B, L, C]⟩ ![0, 0, 0] x hx0)
          (broadcastTo ⟨3, ![B, L, C]⟩ (shapeCast ⟨3, ![1, 1, C]⟩ (shapeCast ⟨1, ![C]⟩
            (extractStridedSlice ⟨2, ![1, C]⟩ ![0, 0] k hk0) h2) h3) h4))
        (mulf (extractStridedSlice ⟨3, ![B, L, C]⟩ ![0, 1, 0] x hx1)
          (broadcastTo ⟨3, ![B, L, C]⟩ (shapeCast ⟨3, ![1, 1, C]⟩ (shapeCast ⟨1, ![C]⟩
            (extractStridedSlice ⟨2, ![1, C]⟩ ![1, 0] k hk1) h2) h3) h4)))
        (mulf (extractStridedSlice ⟨3, ![B, L, C]⟩ ![0, 2, 0] x hx2)
          (broadcastTo ⟨3, ![B, L, C]⟩ (shapeCast ⟨3, ![1, 1, C]⟩ (shapeCast ⟨1, ![C]⟩
            (extractStridedSlice ⟨2, ![1, C]⟩ ![2, 0] k hk2) h2) h3) h4)))) b e
      = win3 (fibre x b e) (k (ix2 (0 : Fin 3) e)) (k (ix2 (1 : Fin 3) e)) (k (ix2 (2 : Fin 3) e)) := by
  funext s
  show Ideal.logistic
      (extractStridedSlice ⟨3, ![B, L, C]⟩ ![0, 0, 0] x hx0 (ix3 b s e) * _
        + extractStridedSlice ⟨3, ![B, L, C]⟩ ![0, 1, 0] x hx1 (ix3 b s e) * _
        + extractStridedSlice ⟨3, ![B, L, C]⟩ ![0, 2, 0] x hx2 (ix3 b s e) * _) = _
  rw [slice3_axis1_apply 0 x hx0 b s e s.castSucc.castSucc (by simp),
    slice3_axis1_apply 1 x hx1 b s e s.succ.castSucc (by simp; omega),
    slice3_axis1_apply 2 x hx2 b s e s.succ.succ (by simp; omega),
    vector_tap_apply 0 (by omega) k hk0 h2 h3 h4 b s e, vector_tap_apply 1 (by omega) k hk1 h2 h3 h4 b s e,
    vector_tap_apply 2 (by omega) k hk2 h2 h3 h4 b s e]
  rfl

/-- The host's logistic, written out over a splat literal one, is the logistic entry by entry. -/
theorem host_logistic_apply {S : Shape} (one : BitVec φ.bits) (hone : Ideal.ofBits φ one = 1)
    (hs : (⟨0, ![]⟩ : Shape).BroadcastsInDim S ![]) (y : FVec Ideal S φ) (i : S.Idx) :
    Host.divf (broadcastInDim S ![] hs (constant (F := Ideal) ⟨0, ![]⟩ φ one))
      (addf (broadcastInDim S ![] hs (constant (F := Ideal) ⟨0, ![]⟩ φ one)) (Host.exp (Host.negf y))) i
      = Ideal.logistic (y i) := by
  show Ideal.div (Ideal.ofBits φ one) (Ideal.ofBits φ one + Ideal.exp (-(y i))) = Ideal.div 1 (1 + Ideal.exp (-(y i)))
  rw [hone]

/-- The host's two-tap window is `win2` of the operand's fibre. -/
theorem host_win2 (one : BitVec φ.bits) (hone : Ideal.ofBits φ one = 1)
    (x : FVec Ideal ⟨3, ![B, L + 1, C]⟩ φ) (k : FVec Ideal ⟨2, ![2, C]⟩ φ)
    (hs : (⟨0, ![]⟩ : Shape).BroadcastsInDim ⟨3, ![B, L, C]⟩ ![])
    (hx0 : (⟨3, ![B, L + 1, C]⟩ : Shape).Slices ![0, 0, 0] ⟨3, ![B, L, C]⟩)
    (hx1 : (⟨3, ![B, L + 1, C]⟩ : Shape).Slices ![0, 1, 0] ⟨3, ![B, L, C]⟩)
    (hk0 : (⟨2, ![2, C]⟩ : Shape).Slices ![0, 0] ⟨2, ![1, C]⟩)
    (hk1 : (⟨2, ![2, C]⟩ : Shape).Slices ![1, 0] ⟨2, ![1, C]⟩)
    (h2 : (⟨2, ![1, C]⟩ : Shape).ShapeCasts ⟨1, ![C]⟩)
    (h3 : (⟨1, ![C]⟩ : Shape).BroadcastsInDim ⟨3, ![1, 1, C]⟩ ![2])
    (h4 : (⟨3, ![1, 1, C]⟩ : Shape).BroadcastsInDim ⟨3, ![B, L, C]⟩ ![0, 1, 2])
    (b : Fin B) (e : Fin C) :
    fibre (Host.divf (broadcastInDim ⟨3, ![B, L, C]⟩ ![] hs (constant (F := Ideal) ⟨0, ![]⟩ φ one))
      (addf (broadcastInDim ⟨3, ![B, L, C]⟩ ![] hs (constant (F := Ideal) ⟨0, ![]⟩ φ one)) (Host.exp (Host.negf (addf
        (mulf (extractStridedSlice ⟨3, ![B, L, C]⟩ ![0, 0, 0] x hx0)
          (broadcastInDim ⟨3, ![B, L, C]⟩ ![0, 1, 2] h4 (broadcastInDim ⟨3, ![1, 1, C]⟩ ![2] h3
            (shapeCast ⟨1, ![C]⟩ (extractStridedSlice ⟨2, ![1, C]⟩ ![0, 0] k hk0) h2))))
        (mulf (extractStridedSlice ⟨3, ![B, L, C]⟩ ![0, 1, 0] x hx1)
          (broadcastInDim ⟨3, ![B, L, C]⟩ ![0, 1, 2] h4 (broadcastInDim ⟨3, ![1, 1, C]⟩ ![2] h3
            (shapeCast ⟨1, ![C]⟩ (extractStridedSlice ⟨2, ![1, C]⟩ ![1, 0] k hk1) h2))))))))) b e
      = win2 (fibre x b e) (k (ix2 (0 : Fin 2) e)) (k (ix2 (1 : Fin 2) e)) := by
  funext s
  refine (host_logistic_apply one hone hs _ (ix3 b s e)).trans ?_
  show Ideal.logistic
      (extractStridedSlice ⟨3, ![B, L, C]⟩ ![0, 0, 0] x hx0 (ix3 b s e) * _
        + extractStridedSlice ⟨3, ![B, L, C]⟩ ![0, 1, 0] x hx1 (ix3 b s e) * _) = _
  rw [slice3_axis1_apply 0 x hx0 b s e s.castSucc (by simp),
    slice3_axis1_apply 1 x hx1 b s e s.succ (by simp; omega),
    host_tap_apply 0 (by omega) k hk0 h2 h3 h4 b s e, host_tap_apply 1 (by omega) k hk1 h2 h3 h4 b s e]
  rfl

/-- The host's three-tap window is `win3` of the operand's fibre. -/
theorem host_win3 (one : BitVec φ.bits) (hone : Ideal.ofBits φ one = 1)
    (x : FVec Ideal ⟨3, ![B, L + 2, C]⟩ φ) (k : FVec Ideal ⟨2, ![3, C]⟩ φ)
    (hs : (⟨0, ![]⟩ : Shape).BroadcastsInDim ⟨3, ![B, L, C]⟩ ![])
    (hx0 : (⟨3, ![B, L + 2, C]⟩ : Shape).Slices ![0, 0, 0] ⟨3, ![B, L, C]⟩)
    (hx1 : (⟨3, ![B, L + 2, C]⟩ : Shape).Slices ![0, 1, 0] ⟨3, ![B, L, C]⟩)
    (hx2 : (⟨3, ![B, L + 2, C]⟩ : Shape).Slices ![0, 2, 0] ⟨3, ![B, L, C]⟩)
    (hk0 : (⟨2, ![3, C]⟩ : Shape).Slices ![0, 0] ⟨2, ![1, C]⟩)
    (hk1 : (⟨2, ![3, C]⟩ : Shape).Slices ![1, 0] ⟨2, ![1, C]⟩)
    (hk2 : (⟨2, ![3, C]⟩ : Shape).Slices ![2, 0] ⟨2, ![1, C]⟩)
    (h2 : (⟨2, ![1, C]⟩ : Shape).ShapeCasts ⟨1, ![C]⟩)
    (h3 : (⟨1, ![C]⟩ : Shape).BroadcastsInDim ⟨3, ![1, 1, C]⟩ ![2])
    (h4 : (⟨3, ![1, 1, C]⟩ : Shape).BroadcastsInDim ⟨3, ![B, L, C]⟩ ![0, 1, 2])
    (b : Fin B) (e : Fin C) :
    fibre (Host.divf (broadcastInDim ⟨3, ![B, L, C]⟩ ![] hs (constant (F := Ideal) ⟨0, ![]⟩ φ one))
      (addf (broadcastInDim ⟨3, ![B, L, C]⟩ ![] hs (constant (F := Ideal) ⟨0, ![]⟩ φ one)) (Host.exp (Host.negf (addf (addf
        (mulf (extractStridedSlice ⟨3, ![B, L, C]⟩ ![0, 0, 0] x hx0)
          (broadcastInDim ⟨3, ![B, L, C]⟩ ![0, 1, 2] h4 (broadcastInDim ⟨3, ![1, 1, C]⟩ ![2] h3
            (shapeCast ⟨1, ![C]⟩ (extractStridedSlice ⟨2, ![1, C]⟩ ![0, 0] k hk0) h2))))
        (mulf (extractStridedSlice ⟨3, ![B, L, C]⟩ ![0, 1, 0] x hx1)
          (broadcastInDim ⟨3, ![B, L, C]⟩ ![0, 1, 2] h4 (broadcastInDim ⟨3, ![1, 1, C]⟩ ![2] h3
            (shapeCast ⟨1, ![C]⟩ (extractStridedSlice ⟨2, ![1, C]⟩ ![1, 0] k hk1) h2)))))
        (mulf (extractStridedSlice ⟨3, ![B, L, C]⟩ ![0, 2, 0] x hx2)
          (broadcastInDim ⟨3, ![B, L, C]⟩ ![0, 1, 2] h4 (broadcastInDim ⟨3, ![1, 1, C]⟩ ![2] h3
            (shapeCast ⟨1, ![C]⟩ (extractStridedSlice ⟨2, ![1, C]⟩ ![2, 0] k hk2) h2))))))))) b e
      = win3 (fibre x b e) (k (ix2 (0 : Fin 3) e)) (k (ix2 (1 : Fin 3) e)) (k (ix2 (2 : Fin 3) e)) := by
  funext s
  refine (host_logistic_apply one hone hs _ (ix3 b s e)).trans ?_
  show Ideal.logistic
      (extractStridedSlice ⟨3, ![B, L, C]⟩ ![0, 0, 0] x hx0 (ix3 b s e) * _
        + extractStridedSlice ⟨3, ![B, L, C]⟩ ![0, 1, 0] x hx1 (ix3 b s e) * _
        + extractStridedSlice ⟨3, ![B, L, C]⟩ ![0, 2, 0] x hx2 (ix3 b s e) * _) = _
  rw [slice3_axis1_apply 0 x hx0 b s e s.castSucc.castSucc (by simp),
    slice3_axis1_apply 1 x hx1 b s e s.succ.castSucc (by simp; omega),
    slice3_axis1_apply 2 x hx2 b s e s.succ.succ (by simp; omega),
    host_tap_apply 0 (by omega) k hk0 h2 h3 h4 b s e, host_tap_apply 1 (by omega) k hk1 h2 h3 h4 b s e,
    host_tap_apply 2 (by omega) k hk2 h2 h3 h4 b s e]
  rfl

end Windows

/-- An [a, 1, b] array with its middle unit axis dropped reads, at (i, j), the operand at (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The binary32 word 0x3F800000 is the real number one. -/
theorem one_f32 : Ideal.ofBits .f32 0x3F800000#32 = 1 := by
  simp [Ideal.ofBits, Ideal.ieee, -EReal.coe_mul]; norm_num

end Cert.Lib.SlidingTaps

end
-- ==== Proof.Spec.lean ====
/-
  What both programs compute, entry by entry.  From the table rows looked up for a batch row, H[b, 0..6, e], and the
  four weight matrices, channel e of batch row b goes through four sliding windows along the sequence axis, each
  followed by the logistic σ:

      H₁[s] = σ(H[s]·c1[0] + H[s+1]·c1[1])                      s < 6
      H₂[s] = σ(H₁[s]·c2[0] + H₁[s+1]·c2[1])                    s < 5
      H₃[s] = σ((H₂[s]·c3[0] + H₂[s+1]·c3[1]) + H₂[s+2]·c3[2])  s < 3
      out   = σ((H₃[0]·c4[0] + H₃[1]·c4[1]) + H₃[2]·c4[2])

  all at the one channel e.  Nothing crosses batch rows or channels, so the same formula describes a block of batch
  rows and the whole array: the batch extent `B` is a parameter.
-/
import proofs.«177396_j62216896250023_1_alg».proof.Proof.LibSlidingTaps

noncomputable section

namespace Cert.ConvChain

open Idealize.ShloMosaic Idealize.ShloMosaic.ValueIdx Cert.Lib.SlidingTaps

/-- Channel `e` of batch row `b` after the four windows. -/
def entry {B : ℕ} (H : (⟨3, ![B, 7, 1024]⟩ : Shape).Idx → EReal)
    (c1 c2 : (⟨2, ![2, 1024]⟩ : Shape).Idx → EReal) (c3 c4 : (⟨2, ![3, 1024]⟩ : Shape).Idx → EReal)
    (b : Fin B) (e : Fin 1024) : EReal :=
  win3 (win3 (win2 (win2 (fibre H b e) (c1 (ix2 (0 : Fin 2) e)) (c1 (ix2 (1 : Fin 2) e)))
        (c2 (ix2 (0 : Fin 2) e)) (c2 (ix2 (1 : Fin 2) e)))
      (c3 (ix2 (0 : Fin 3) e)) (c3 (ix2 (1 : Fin 3) e)) (c3 (ix2 (2 : Fin 3) e)))
    (c4 (ix2 (0 : Fin 3) e)) (c4 (ix2 (1 : Fin 3) e)) (c4 (ix2 (2 : Fin 3) e)) (0 : Fin 1)

/-- The [B, 1024] result array. -/
def result {B : ℕ} (H : (⟨3, ![B, 7, 1024]⟩ : Shape).Idx → EReal)
    (c1 c2 : (⟨2, ![2, 1024]⟩ : Shape).Idx → EReal) (c3 c4 : (⟨2, ![3, 1024]⟩ : Shape).Idx → EReal) :
    (⟨2, ![B, 1024]⟩ : Shape).Idx → EReal :=
  fun j => entry H c1 c2 c3 c4 (j 0) (j 1)

theorem result_apply {B : ℕ} (H : (⟨3, ![B, 7, 1024]⟩ : Shape).Idx → EReal)
    (c1 c2 : (⟨2, ![2, 1024]⟩ : Shape).Idx → EReal) (c3 c4 : (⟨2, ![3, 1024]⟩ : Shape).Idx → EReal)
    (b : Fin B) (e : Fin 1024) : result H c1 c2 c3 c4 (ix2 b e) = entry H c1 c2 c3 c4 b e := rfl

/-- The entry depends only on the table's fibre at (b, ·, e) and on the weights at channel e: two sets of arrays that
    agree there give the same entry.  (A block of batch rows against the whole array; weights read through a window
    against the arrays themselves.) -/
theorem entry_congr {B B' : ℕ} (H : (⟨3, ![B, 7, 1024]⟩ : Shape).Idx → EReal)
    (H' : (⟨3, ![B', 7, 1024]⟩ : Shape).Idx → EReal)
    (c1 c2 c1' c2' : (⟨2, ![2, 1024]⟩ : Shape).Idx → EReal) (c3 c4 c3' c4' : (⟨2, ![3, 1024]⟩ : Shape).Idx → EReal)
    (p : Fin B') (b : Fin B) (e' e : Fin 1024)
    (hrow : ∀ s : Fin 7, H' (ix3 p s e') = H (ix3 b s e))
    (h1 : ∀ u : Fin 2, c1' (ix2 u e') = c1 (ix2 u e)) (h2 : ∀ u : Fin 2, c2' (ix2 u e') = c2 (ix2 u e))
    (h3 : ∀ u : Fin 3, c3' (ix2 u e') = c3 (ix2 u e)) (h4 : ∀ u : Fin 3, c4' (ix2 u e') = c4 (ix2 u e)) :
    entry H' c1' c2' c3' c4' p e' = entry H c1 c2 c3 c4 b e := by
  unfold entry
  rw [show fibre H' p e' = fibre H b e from funext hrow, h1 0, h1 1, h2 0, h2 1, h3 0, h3 1, h3 2, h4 0, h4 1, h4 2]

end Cert.ConvChain

end
-- ==== Proof.Body.lean ====
/-
  What the kernel's body stores, entry by entry.  The body loads a block of 128 batch rows of looked-up table entries
  (128 × 7 × 1024) and the four weight matrices whole, runs the four windows on the vector unit and stores the
  128 × 1024 result.  Its stored value at (p, e) is `ConvChain.entry` of the loaded block at (p, e): each window is the
  vector unit's spelling of `win2` / `win3` (LibSlidingTaps), the first operand passes through a shape cast to its
  own shape, and the last value drops its middle unit axis.
-/
import proofs.«177396_j62216896250023_1_alg».proof.Proof.Gen.KernelIdeal.Skeleton
import proofs.«177396_j62216896250023_1_alg».proof.Proof.Spec
import Idealize.ShloMosaic.Lib.Pipeline.Value

noncomputable section

namespace Cert.KernelIdeal.BodyValue

open Cert.KernelIdeal Cert.KernelIdeal.Gen Idealize.ShloMosaic Idealize.ShloMosaic.ValueIdx
open Cert.Lib.SlidingTaps Cert.ConvChain

/-- After the first two windows: the two-tap window twice over the loaded block's fibre. -/
theorem second_stage (x0 : Vec Ideal S128x7x1024 .f32) (k1 k2 : Vec Ideal S2x1024 .f32) (p : Fin 128) (e : Fin 1024) :
    fibre (k0_pay2 x0 k1 k2) p e
      = win2 (win2 (fibre x0 p e) (k1 (ix2 (0 : Fin 2) e)) (k1 (ix2 (1 : Fin 2) e)))
          (k2 (ix2 (0 : Fin 2) e)) (k2 (ix2 (1 : Fin 2) e)) := by
  unfold k0_pay2
  refine (vector_win2 _ k2 _ _ _ _ _ _ _ p e).trans (congrArg (fun h => win2 h _ _) ?_)
  refine (vector_win2 _ k1 _ _ _ _ _ _ _ p e).trans (congrArg (fun h => win2 h _ _) ?_)
  exact congrArg (fun v => fibre v p e) (shapeCast_self x0 _)

/-- The stored value at (p, e): the third window is split over three of the body's named values (its first two
    products, the third slice, the third weight row), which put together are the vector unit's three-tap window of
    the second stage; the fourth window follows whole. -/
theorem stored_entry (x0 : Vec Ideal S128x7x1024 .f32) (k1 k2 : Vec Ideal S2x1024 .f32) (k3 k4 : Vec Ideal S3x1024 .f32)
    (p : Fin 128) (e : Fin 1024) :
    k0_pay1 (k0_pay3 x0 k1 k2 k3) (k0_pay4 x0 k1 k2) (k0_pay5 k3) k4 (ix2 p e) = entry x0 k1 k2 k3 k4 p e := by
  unfold k0_pay1 k0_pay3 k0_pay4 k0_pay5
  refine (shapeCast_a1b_ab_apply _ _ p e).trans ?_
  refine (congrFun (vector_win3 _ k4 _ _ _ _ _ _ _ _ _ p e) (0 : Fin 1)).trans ?_
  unfold entry
  refine congrArg (fun h => win3 h _ _ _ (0 : Fin 1)) ?_
  refine (vector_win3 _ k3 _ _ _ _ _ _ _ _ _ p e).trans (congrArg (fun h => win3 h _ _ _) ?_)
  exact second_stage x0 k1 k2 p e

/-- The same at an index of the stored block not yet split into coordinates. -/
theorem stored_at (x0 : Vec Ideal S128x7x1024 .f32) (k1 k2 : Vec Ideal S2x1024 .f32) (k3 k4 : Vec Ideal S3x1024 .f32)
    (y : S128x1024.Idx) :
    k0_pay1 (k0_pay3 x0 k1 k2 k3) (k0_pay4 x0 k1 k2) (k0_pay5 k3) k4 y = entry x0 k1 k2 k3 k4 (y 0) (y 1) := by
  obtain ⟨p, e, rfl⟩ : ∃ (p : Fin 128) (e : Fin 1024), y = ix2 p e := ⟨y 0, y 1, eq_ix2 y⟩
  exact stored_entry x0 k1 k2 k3 k4 p e

end Cert.KernelIdeal.BodyValue

end
-- ==== Proof.KernelArray.lean ====
/-
  The kernel's result array, entry by entry.  The grid has 128 points; point t stages rows 128·t … 128·t + 127 of the
  looked-up table (all 7 positions, all 1024 channels), the four weight matrices whole, and writes rows
  128·t … 128·t + 127 of the [16384, 1024] result.  What a point writes is the body's stored value of its blocks
  (Body.lean), and a block's entry is the whole array's entry at the row the block sits on (`ConvChain.entry_congr`:
  nothing crosses batch rows), so point t writes block t of ONE array, `whole`; the 128 blocks tile the result, so
  the result ends holding `whole`.
-/
import proofs.«177396_j62216896250023_1_alg».proof.Proof.Gen.KernelIdeal.Frame
import proofs.«177396_j62216896250023_1_alg».proof.Proof.Body
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.Lib.SlidingTaps Cert.ConvChain
open Idealize.ShloMosaic.Pipeline (Dat)

variable (m : (ℓ : Loc nD τ sig) → Buf (Elt Ideal) ℓ) (ρ : Dev nD → PrngReg)

/-- The result array as one function: `ConvChain.result` of the looked-up table and the four weight arrays as the
    launch finds them. -/
def whole (c : Dev nD) : S16384x1024.Idx → EReal :=
  result (V m c main_v6 : S16384x7x1024.Idx → EReal) (V m c main_arg2 : S2x1024.Idx → EReal)
    (V m c main_arg3 : S2x1024.Idx → EReal) (V m c main_arg4 : S3x1024.Idx → EReal) (V m c main_arg5 : S3x1024.Idx → EReal)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the 128 grid points: the table's block moves with the result's along the batch axis and
    sits at 0 on the other two; every weight block sits at (0, 0); the result's block index is (t, 0) with t ≤ 127. -/
theorem index_facts : ∀ t : Fin cfg0.N,
    win0_0.index t (0 : Fin 3) = win0_5.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 127 ∧ win0_5.index t (1 : Fin 2) = 0 :=
  (by decide +kernel : ∀ t : Fin grid0.N, _)

/-- Every block of batch rows is some point's. -/
theorem index_onto : ∀ q : Fin 128, ∃ t : Fin cfg0.N, win0_5.index t = ![q.val, 0] :=
  (by decide +kernel : ∀ q : Fin 128, ∃ t : Fin grid0.N, win0_5.index t = ![q.val, 0])

/-- WHAT POINT `t` WRITES BACK is block `t` of `whole`. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero zero2]
  simp only [View.ld_unit_zero (S := S128x7x1024) zero3, View.ld_unit_zero (S := S2x1024) zero2,
    View.ld_unit_zero (S := S3x1024) zero2]
  obtain ⟨e00, e01, e02, e10, e11, e20, e21, e30, e31, e40, e41, -, e51⟩ := index_facts t
  funext j
  refine (BodyValue.stored_at (iblk m c 0 t) (iblk m c 1 t) (iblk m c 2 t) (iblk m c 3 t) (iblk m c 4 t) j).trans ?_
  show _ = entry (V m c main_v6 : S16384x7x1024.Idx → EReal) (V m c main_arg2 : S2x1024.Idx → EReal)
    (V m c main_arg3 : S2x1024.Idx → EReal) (V m c main_arg4 : S3x1024.Idx → EReal) (V m c main_arg5 : S3x1024.Idx → EReal)
    ((((cfg0.win 5).blk t).view.emb j) 0) ((((cfg0.win 5).blk t).view.emb j) 1)
  have hj0 : (j 0).val < 128 := (j 0).isLt
  have hj1 : (j 1).val < 1024 := (j 1).isLt
  refine entry_congr _ _ _ _ _ _ _ _ _ _ (j 0) _ (j 1) _ (fun s => ?_) (fun u => ?_) (fun u => ?_) (fun u => ?_) (fun u => ?_)
  · show V m c main_v6 (((cfg0.win 0).blk t).view.emb (ix3 (j 0) s (j 1))) = V m c main_v6 (ix3 _ s _)
    refine congrArg (V m c main_v6) (funext fun a => Fin.ext ?_)
    match a with
    | ⟨0, _⟩ => show win0_0.index t (0 : Fin 3) * 128 + 1 * (j 0).val = win0_5.index t (0 : Fin 2) * 128 + 1 * (j 0).val; omega
    | ⟨1, _⟩ => show win0_0.index t (1 : Fin 3) * 7 + 1 * s.val = s.val; omega
    | ⟨2, _⟩ => show win0_0.index t (2 : Fin 3) * 1024 + 1 * (j 1).val = win0_5.index t (1 : Fin 2) * 1024 + 1 * (j 1).val; omega
  · show V m c main_arg2 (((cfg0.win 1).blk t).view.emb (ix2 u (j 1))) = V m c main_arg2 (ix2 u _)
    refine congrArg (V m c main_arg2) (funext fun a => Fin.ext ?_)
    match a with
    | ⟨0, _⟩ => show win0_1.index t (0 : Fin 2) * 2 + 1 * u.val = u.val; omega
    | ⟨1, _⟩ => show win0_1.index t (1 : Fin 2) * 1024 + 1 * (j 1).val = win0_5.index t (1 : Fin 2) * 1024 + 1 * (j 1).val; omega
  · show V m c main_arg3 (((cfg0.win 2).blk t).view.emb (ix2 u (j 1))) = V m c main_arg3 (ix2 u _)
    refine congrArg (V m c main_arg3) (funext fun a => Fin.ext ?_)
    match a with
    | ⟨0, _⟩ => show win0_2.index t (0 : Fin 2) * 2 + 1 * u.val = u.val; omega
    | ⟨1, _⟩ => show win0_2.index t (1 : Fin 2) * 1024 + 1 * (j 1).val = win0_5.index t (1 : Fin 2) * 1024 + 1 * (j 1).val; omega
  · show V m c main_arg4 (((cfg0.win 3).blk t).view.emb (ix2 u (j 1))) = V m c main_arg4 (ix2 u _)
    refine congrArg (V m c main_arg4) (funext fun a => Fin.ext ?_)
    match a with
    | ⟨0, _⟩ => show win0_3.index t (0 : Fin 2) * 3 + 1 * u.val = u.val; omega
    | ⟨1, _⟩ => show win0_3.index t (1 : Fin 2) * 1024 + 1 * (j 1).val = win0_5.index t (1 : Fin 2) * 1024 + 1 * (j 1).val; omega
  · show V m c main_arg5 (((cfg0.win 4).blk t).view.emb (ix2 u (j 1))) = V m c main_arg5 (ix2 u _)
    refine congrArg (V m c main_arg5) (funext fun a => Fin.ext ?_)
    match a with
    | ⟨0, _⟩ => show win0_4.index t (0 : Fin 2) * 3 + 1 * u.val = u.val; omega
    | ⟨1, _⟩ => show win0_4.index t (1 : Fin 2) * 1024 + 1 * (j 1).val = win0_5.index t (1 : Fin 2) * 1024 + 1 * (j 1).val; omega

/-- An index of the result is in point `t`'s block iff each coordinate is in the block's range on its axis. -/
theorem mem_block (t : Fin cfg0.N) (i : S16384x1024.Idx) :
    i ∈ ((cfg0.win 5).blk t).view.set ↔ ∀ a : Fin 2, win0_5.index t a * S128x1024.size a ≤ (i a).val
      ∧ (i a).val < win0_5.index t a * S128x1024.size a + S128x1024.size a := by
  show i ∈ ((View.whole main_v7).slice (win0_5.rect t)).set ↔ _
  rw [View.set_slice_whole, Rect.mem_set_unit]
  exact Iff.rfl

/-- The blocks tile the result: row r is in the block of point r / 128. -/
theorem covered (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := index_onto ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 1024 ≤ (i 1).val ∧ (i 1).val < win0_5.index t (1 : Fin 2) * 1024 + 1024; omega

/-- THE ARRAY after the run is `whole`. -/
theorem final (c : Dev nD) : (dats m 0 c).arrAt 5 cfg0.N = whole m c :=
  (dats m 0 c).arrAt_eq_of_cover 5 (whole m c) (fun t _ => flushed_eq m c t) covered

/-! ## The arrays the call finds, from the launch memory -/

/-- The lookup the program does on the host before the call: an index below zero is wrapped by the table's 32000
    rows, then row X[b, s] of the table is gathered to (b, s, ·). -/
def lookup (X : S16384x7.Idx → BitVec 32) (table : S32000x1024.Idx → EReal) : S16384x7x1024.Idx → EReal :=
  Host.gather gather_S32000x1024_S16384x7x1_S16384x7x1024_2_0_n_n_0_2_11024 table
    (broadcastInDim S16384x7x1 ![0, 1] bcast_S16384x7_S16384x7x1_0_1
      (select (cmpi .slt X (broadcastInDim S16384x7 ![] bcast_S_S16384x7 (constantI S_ 32 0#32)))
        (addi X (broadcastInDim S16384x7 ![] bcast_S_S16384x7 (constantI S_ 32 32000#32))) X))

/-- The array the first window stages is that lookup of the launch's index and table arrays. -/
theorem staged_table (c : Dev nD) :
    (V m c main_v6 : S16384x7x1024.Idx → EReal)
      = lookup (m ((c : Thread nD τ).loc main_arg0)) (m ((c : Thread nD τ).loc main_arg1)) := by
  dsimp only [V, hostOps0]
  after_results
  rfl

/-- The result array in terms of the launch memory alone. -/
theorem whole_eq (c : Dev nD) :
    whole m c = result (lookup (m ((c : Thread nD τ).loc main_arg0)) (m ((c : Thread nD τ).loc main_arg1)))
      (m ((c : Thread nD τ).loc main_arg2) : S2x1024.Idx → EReal) (m ((c : Thread nD τ).loc main_arg3) : S2x1024.Idx → EReal)
      (m ((c : Thread nD τ).loc main_arg4) : S3x1024.Idx → EReal) (m ((c : Thread nD τ).loc main_arg5) : S3x1024.Idx → EReal) := by
  unfold whole
  rw [staged_table, V_main_arg2, V_main_arg3, V_main_arg4, V_main_arg5]

/-! ## The run -/

/-- Every weakly fair execution of the program terminates with the result array at `whole` and the six argument arrays
    as launched: the frame run, with the result window's array read by `final` and each argument's either staged by an
    input window that never writes back or touched by no window at all. -/
theorem run : θ_run defs (onTc (τ := τ) (main (F := Ideal))) ⟨m, fun _ => 0, ρ⟩ fun r => ∀ c : Dev nD,
      r.2.mem ((c : Thread nD τ).loc main_v7) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩)
    (run_main m ρ)

end Cert.KernelIdeal.ArrayValue

end
-- ==== Proof.Reference.lean ====
/-
  The reference's result, entry by entry.  The reference looks the table rows up on the host (the same operations the
  kernel's program applies before its call: that array is carried whole, never opened) and then applies the four
  windows to the whole [16384, 7, 1024] array: each is the host's spelling of `win2` / `win3` (LibSlidingTaps; the
  logistic written out as 1 / (1 + exp (−y))), and the last value drops its middle unit axis.  So its result is
  `ConvChain.result` of the looked-up table and the four weight arrays.
-/
import proofs.«177396_j62216896250023_1_alg».proof.Proof.Gen.ReferenceIdeal.Read
import proofs.«177396_j62216896250023_1_alg».proof.Proof.Spec

noncomputable section

namespace Cert.ReferenceIdeal.RefValue

open Cert.ReferenceIdeal Cert.ReferenceIdeal.Read Idealize.ShloMosaic Idealize.ShloMosaic.ValueIdx
open Cert.Lib.SlidingTaps Cert.ConvChain

variable (x0 : (⟨S16384x7, .i32⟩ : BufTy).Contents (Elt Ideal)) (x1 : (⟨S32000x1024, .f32⟩ : BufTy).Contents (Elt Ideal))
  (x2 x3 : (⟨S2x1024, .f32⟩ : BufTy).Contents (Elt Ideal)) (x4 x5 : (⟨S3x1024, .f32⟩ : BufTy).Contents (Elt Ideal))

/-- The looked-up table rows, [16384, 7, 1024]: the host's gather of the table at the wrapped indices, kept whole. -/
abbrev table : S16384x7x1024.Idx → EReal := val_main_v6 (F := Ideal) x0 x1

/-- First window (two taps, weights `x2`): 7 → 6 positions. -/
theorem first_window (b : Fin 16384) (e : Fin 1024) :
    fibre (val_main_v25 (F := Ideal) x0 x1 x2 : S16384x6x1024.Idx → EReal) b e
      = win2 (fibre (table x0 x1) b e) (x2 (ix2 (0 : Fin 2) e)) (x2 (ix2 (1 : Fin 2) e)) :=
  host_win2 _ one_f32 (table x0 x1) x2 _ _ _ _ _ _ _ _ b e

/-- Second window (two taps, weights `x3`): 6 → 5 positions. -/
theorem second_window (b : Fin 16384) (e : Fin 1024) :
    fibre (val_main_v44 (F := Ideal) x0 x1 x2 x3 : S16384x5x1024.Idx → EReal) b e
      = win2 (fibre (val_main_v25 (F := Ideal) x0 x1 x2 : S16384x6x1024.Idx → EReal) b e)
          (x3 (ix2 (0 : Fin 2) e)) (x3 (ix2 (1 : Fin 2) e)) :=
  host_win2 _ one_f32 (val_main_v25 (F := Ideal) x0 x1 x2 : S16384x6x1024.Idx → EReal) x3 _ _ _ _ _ _ _ _ b e

/-- Third window (three taps, weights `x4`): 5 → 3 positions. -/
theorem third_window (b : Fin 16384) (e : Fin 1024) :
    fibre (val_main_v70 (F := Ideal) x0 x1 x2 x3 x4 : S16384x3x1024.Idx → EReal) b e
      = win3 (fibre (val_main_v44 (F := Ideal) x0 x1 x2 x3 : S16384x5x1024.Idx → EReal) b e)
          (x4 (ix2 (0 : Fin 3) e)) (x4 (ix2 (1 : Fin 3) e)) (x4 (ix2 (2 : Fin 3) e)) :=
  host_win3 _ one_f32 (val_main_v44 (F := Ideal) x0 x1 x2 x3 : S16384x5x1024.Idx → EReal) x4 _ _ _ _ _ _ _ _ _ _ b e

/-- Fourth window (three taps, weights `x5`): 3 → 1 position. -/
theorem fourth_window (b : Fin 16384) (e : Fin 1024) :
    fibre (val_main_v96 (F := Ideal) x0 x1 x2 x3 x4 x5 : S16384x1x1024.Idx → EReal) b e
      = win3 (fibre (val_main_v70 (F := Ideal) x0 x1 x2 x3 x4 : S16384x3x1024.Idx → EReal) b e)
          (x5 (ix2 (0 : Fin 3) e)) (x5 (ix2 (1 : Fin 3) e)) (x5 (ix2 (2 : Fin 3) e)) :=
  host_win3 _ one_f32 (val_main_v70 (F := Ideal) x0 x1 x2 x3 x4 : S16384x3x1024.Idx → EReal) x5 _ _ _ _ _ _ _ _ _ _ b e

/-- The reference's result at (b, e). -/
theorem result_entry (b : Fin 16384) (e : Fin 1024) :
    val_main_v97 (F := Ideal) x0 x1 x2 x3 x4 x5 (ix2 b e) = entry (table x0 x1) x2 x3 x4 x5 b e := by
  unfold val_main_v97
  refine (shapeCast_a1b_ab_apply _ _ b e).trans ?_
  show fibre (val_main_v96 (F := Ideal) x0 x1 x2 x3 x4 x5 : S16384x1x1024.Idx → EReal) b e (0 : Fin 1) = _
  rw [fourth_window, third_window, second_window, first_window]
  rfl

/-- The reference's result array is `ConvChain.result` of the looked-up table and the weight arrays. -/
theorem result_eq :
    (val_main_v97 (F := Ideal) x0 x1 x2 x3 x4 x5 : S16384x1024.Idx → EReal) = result (table x0 x1) x2 x3 x4 x5 := by
  funext j
  obtain ⟨b, e, rfl⟩ : ∃ (b : Fin 16384) (e : Fin 1024), j = ix2 b e := ⟨j 0, j 1, eq_ix2 j⟩
  exact result_entry x0 x1 x2 x3 x4 x5 b e

end Cert.ReferenceIdeal.RefValue

end
-- ==== Proof.lean ====
/-
  The kernel looks rows of a [32000, 1024] table up at [16384, 7] indices on the host and then, in one call over
  128 blocks of 128 batch rows, runs four sliding windows along the sequence axis (7 → 6 → 5 → 3 → 1 positions; two,
  two, three and three taps; one weight per tap and channel), each followed by the logistic.  The reference does the
  same lookup and the same four windows on whole arrays, the logistic written out as 1 / (1 + exp (−y)).

  On the extended reals the two are one function: the vector unit's logistic IS 1 / (1 + exp (−y)), the literal one is
  the real one, and every other operation is the same multiply and add in the same order, so no law of arithmetic is
  used and the precondition is never opened.  What is proved is bookkeeping of indices: both results are
  `ConvChain.result` of the looked-up table and the four weight arrays — the kernel's block by block
  (Body.lean, KernelArray.lean), the reference's stage by stage (Reference.lean) — and the two lookups are the same
  host operations of the same arguments.  The idealized kernel is the kernel's own text read over the extended reals
  (no operation was replaced), so `preserves` has nothing to state and is `True`.
-/
import proofs.«177396_j62216896250023_1_alg».proof.Defs
import proofs.«177396_j62216896250023_1_alg».proof.Proof.Gen.Kernel
import proofs.«177396_j62216896250023_1_alg».proof.Proof.Gen.Kernel.Skeleton
import proofs.«177396_j62216896250023_1_alg».proof.Proof.Gen.Kernel.Launch
import proofs.«177396_j62216896250023_1_alg».proof.Proof.Gen.Kernel.Points
import proofs.«177396_j62216896250023_1_alg».proof.Proof.Gen.Kernel.Frame
import proofs.«177396_j62216896250023_1_alg».proof.Proof.Gen.KernelIdeal
import proofs.«177396_j62216896250023_1_alg».proof.Proof.Gen.KernelIdeal.Skeleton
import proofs.«177396_j62216896250023_1_alg».proof.Proof.Gen.KernelIdeal.Launch
import proofs.«177396_j62216896250023_1_alg».proof.Proof.Gen.KernelIdeal.Points
import proofs.«177396_j62216896250023_1_alg».proof.Proof.Gen.KernelIdeal.Frame
import proofs.«177396_j62216896250023_1_alg».proof.Proof.Gen.ReferenceIdeal
import proofs.«177396_j62216896250023_1_alg».proof.Proof.Gen.ReferenceIdeal.Run
import proofs.«177396_j62216896250023_1_alg».proof.Proof.Gen.ReferenceIdeal.Read
import proofs.«177396_j62216896250023_1_alg».proof.Proof.Gen.Pre_finite_inputs
import proofs.«177396_j62216896250023_1_alg».proof.Proof.KernelArray
import proofs.«177396_j62216896250023_1_alg».proof.Proof.Reference
import Idealize.ShloMosaic.Adequacy
import Idealize.ShloMosaic.Init

noncomputable section

namespace Cert.Proof

open Idealize.ShloMosaic Idealize.ShloMosaic.TcCoe Idealize.SL.Sem

/-- The two programs' host lookups are the same operations of the same two arguments. -/
theorem lookup_eq (X : Cert.KernelIdeal.S16384x7.Idx → BitVec 32) (table : Cert.KernelIdeal.S32000x1024.Idx → EReal) :
    Cert.KernelIdeal.ArrayValue.lookup X table = Cert.ReferenceIdeal.Read.val_main_v6 (F := Ideal) X table := rfl

theorem frame_kernel : Cert.frame_Kernel := fun m ρ _ => Cert.Kernel.Gen.frame m ρ

theorem frame_kernel_ideal : Cert.frame_KernelIdeal := fun m ρ _ => Cert.KernelIdeal.Gen.frame m ρ

/-- The reference has no call: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at `ConvChain.result` of the looked-up table and the weight arrays of the
    kernel's launch memory: the kernel's run says so of its own memory, and the reference's memory agrees with it on
    the six arguments. -/
theorem algebraic : Cert.algebraic_KernelIdeal_ReferenceIdeal := by
  intro m ρ m' ρ' _ hagree
  refine ⟨fun c => Cert.KernelIdeal.ArrayValue.whole m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v97 m' c = Cert.KernelIdeal.ArrayValue.whole m c
  rw [Cert.ReferenceIdeal.Read.val_main_v97_eq, (hagree c).1, (hagree c).2.1, (hagree c).2.2.1, (hagree c).2.2.2.1,
    (hagree c).2.2.2.2.1, (hagree c).2.2.2.2.2, Cert.KernelIdeal.ArrayValue.whole_eq, lookup_eq]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
